-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000x16 : Shape := ⟨2, ![1000000, 16]⟩
abbrev S64x128 : Shape := ⟨2, ![64, 128]⟩
abbrev S64 : Shape := ⟨1, ![64]⟩
abbrev S64x96 : Shape := ⟨2, ![64, 96]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x96 : S_.BroadcastsInDim S64x96 (![] : Fin 0 → Fin S64x96.rank)
  reducesTo_S64x96_S_d0_1 : S64x96.ReducesTo [0, 1] S_

variable [Facts]

def fn_part1 {F : FTy → Type} [FloatOps F] (main_arg5 : FVec F S64 .f32) (main_arg6 : FVec F S64x96 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x96 .f32 := Host.absf main_arg6
  let main_cst_8 : FVec F S_ .f32 := constant S_ .f32 0x7F800000#32
  let main_v25 : FVec F S64x96 .f32 := broadcastInDim S64x96 ![] bcast_S_S64x96 main_cst_8
  let main_v26 : IVec S64x96 1 := cmpf .olt main_v24 main_v25
  let main_c_9 : IVec S_ 1 := constantI S_ 1 1#1
  let main_v27 : IVec S_ 1 := (fun x v => Host.reduce IntOp.andi x v reducesTo_S64x96_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : FVec F S1000000x16 .f32) (main_arg3 : FVec F S1000000x16 .f32) (main_arg4 : FVec F S64x128 .f32) (main_arg5 : FVec F S64 .f32) (main_arg6 : FVec F S64x96 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S1000000x16 .f32 := Host.absf main_arg3
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1000000 : Shape := ⟨2, ![2, 1000000]⟩
abbrev S1000000x16 : Shape := ⟨2, ![1000000, 16]⟩
abbrev S64x128 : Shape := ⟨2, ![64, 128]⟩
abbrev S64 : Shape := ⟨1, ![64]⟩
abbrev S64x96 : Shape := ⟨2, ![64, 96]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S128x64 : Shape := ⟨2, ![128, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S64x64 : Shape := ⟨2, ![64, 64]⟩
abbrev S64x16 : Shape := ⟨2, ![64, 16]⟩
abbrev S5000x64 : Shape := ⟨2, ![5000, 64]⟩
abbrev S5000x16 : Shape := ⟨2, ![5000, 16]⟩
abbrev S16x64 : Shape := ⟨2, ![16, 64]⟩

abbrev nBuf : Space → Nat
  | .hbm => 45
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x16, .f32⟩
  | .hbm, ⟨3, _⟩ => ⟨S1000000x16, .f32⟩
  | .hbm, ⟨4, _⟩ => ⟨S64x128, .f32⟩
  | .hbm, ⟨5, _⟩ => ⟨S64, .f32⟩
  | .hbm, ⟨6, _⟩ => ⟨S64x96, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S100000x64, .f32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S_, .i32⟩
  | .hbm, ⟨15, _⟩ => ⟨S1x1000000, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S64x64, .f32⟩
  | .hbm, ⟨42, _⟩ => ⟨S64x16, .f32⟩
  | .hbm, ⟨43, _⟩ => ⟨S64x16, .f32⟩
  | .hbm, ⟨44, _⟩ => ⟨S1000000x64, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | .local _ .vmem, ⟨14, _⟩ => ⟨S64x64, .f32⟩
  | .local _ .vmem, ⟨15, _⟩ => ⟨S64x16, .f32⟩
  | .local _ .vmem, ⟨16, _⟩ => ⟨S64x16, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S2x1000000_S1x1000000_0_0 : S2x1000000.Slices ![0, 0] S1x1000000
  shapeCasts_S1x1000000_S1000000 : S1x1000000.ShapeCasts S1000000
  reducesTo_S1000000_S_d0 : S1000000.ReducesTo [0] S_
  h_S_ : 0 < S_.numel
  bcast_S_S1000000 : S_.BroadcastsInDim S1000000 (![] : Fin 0 → Fin S1000000.rank)
  slices_S2x1000000_S1x1000000_1_0 : S2x1000000.Slices ![1, 0] S1x1000000
  bcast_S1000000_S1000000x1_0 : S1000000.BroadcastsInDim S1000000x1 (![0] : Fin 1 → Fin S1000000x1.rank)
  slices_S64x96_S64x64_0_0 : S64x96.Slices ![0, 0] S64x64
  slices_S64x96_S64x16_0_64 : S64x96.Slices ![0, 64] S64x16
  slices_S64x96_S64x16_0_80 : S64x96.Slices ![0, 80] S64x16
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S5000x16_S5000x16_0_0 : ∀ a, (![0, 0] : Fin 2 → Nat) a + S5000x16.size a ≤ S5000x16.size a
  h_S5000x16 : 0 < S5000x16.numel
  inb_S64x16_S64x16_0_0 : ∀ a, (![0, 0] : Fin 2 → Nat) a + S64x16.size a ≤ S64x16.size a
  h_S64x16 : 0 < S64x16.numel
  shapeCasts_S64x16_S64x16 : S64x16.ShapeCasts S64x16
  transposes_S64x16_p1_0_S16x64 : S64x16.Transposes [1, 0] S16x64
  broadcasts_S1x64_S5000x64 : S1x64.Broadcasts S5000x64
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  dot_S5000x64_S64x64_S5000x64_1_0_0_1_n_n_wf : DotDims.WF S5000x64 S64x64 S5000x64 [1] [0] [0] [1] [] []
  dot_S5000x16_S16x64_S5000x64_1_0_0_1_n_n_wf : DotDims.WF S5000x16 S16x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1000000x64.size a
  hwx1_0 : ∀ i : grid1.Coords, EltTy.bits .f32 = 32 ∨ (Rect.block (s := S1000000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1000000x64.size a
  hwx1_1 : ∀ i : grid1.Coords, EltTy.bits .f32 = 32 ∨ (Rect.block (s := S1000000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S1000000x16.size a
  hwx1_2 : ∀ i : grid1.Coords, EltTy.bits .f32 = 32 ∨ (Rect.block (s := S1000000x16) S5000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S1000000x16.size a
  hwx1_3 : ∀ i : grid1.Coords, EltTy.bits .f32 = 32 ∨ (Rect.block (s := S1000000x16) S5000x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x16.size a ≤ S64x16.size a
  hwx1_6 : ∀ i : grid1.Coords, EltTy.bits .f32 = 32 ∨ (Rect.block (s := S64x16) S64x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S1000000x64.size a
  hwx1_8 : ∀ i : grid1.Coords, EltTy.bits .f32 = 32 ∨ (Rect.block (s := S1000000x64) S5000x64.size (cc1_transform_8 i) (hinb1_8 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S5000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S5000x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S64x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000x16 : Shape := ⟨2, ![1000000, 16]⟩
abbrev S64x128 : Shape := ⟨2, ![64, 128]⟩
abbrev S64 : Shape := ⟨1, ![64]⟩
abbrev S64x96 : Shape := ⟨2, ![64, 96]⟩
abbrev S1x1000000 : Shape := ⟨2, ![1, 1000000]⟩
abbrev S1000000 : Shape := ⟨1, ![1000000]⟩
abbrev S_ : Shape := ⟨0, ![]⟩
abbrev S128x64 : Shape := ⟨2, ![128, 64]⟩
abbrev S100000x64 : Shape := ⟨2, ![100000, 64]⟩
abbrev S1x64 : Shape := ⟨2, ![1, 64]⟩
abbrev S1000000x1 : Shape := ⟨2, ![1000000, 1]⟩
abbrev S1000000x64 : Shape := ⟨2, ![1000000, 64]⟩
abbrev S1000000x96 : Shape := ⟨2, ![1000000, 96]⟩
abbrev S96x64 : Shape := ⟨2, ![96, 64]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x16, .f32⟩
  | .hbm, ⟨3, _⟩ => ⟨S1000000x16, .f32⟩
  | .hbm, ⟨4, _⟩ => ⟨S64x128, .f32⟩
  | .hbm, ⟨5, _⟩ => ⟨S64, .f32⟩
  | .hbm, ⟨6, _⟩ => ⟨S64x96, .f32⟩
  | .hbm, ⟨7, _⟩ => ⟨S64, .f32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S_, .i32⟩
  | .hbm, ⟨12, _⟩ => ⟨S1x1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S128x64, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S1000000x64, .f32⟩
  | .hbm, ⟨46, _⟩ => ⟨S1000000x64, .f32⟩
  | .hbm, ⟨47, _⟩ => ⟨S1000000x96, .f32⟩
  | .hbm, ⟨48, _⟩ => ⟨S96x64, .f32⟩
  | .hbm, ⟨49, _⟩ => ⟨S1000000x64, .f32⟩
  | .hbm, ⟨50, _⟩ => ⟨S1x64, .f32⟩
  | .hbm, ⟨51, _⟩ => ⟨S1000000x64, .f32⟩
  | .hbm, ⟨52, _⟩ => ⟨S1000000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  reducesTo_S1000000_S_d0 : S1000000.ReducesTo [0] S_
  h_S_ : 0 < S_.numel
  bcast_S_S1000000 : S_.BroadcastsInDim S1000000 (![] : Fin 0 → Fin S1000000.rank)
  slices_S2x1000000_S1x1000000_1_0 : S2x1000000.Slices ![1, 0] S1x1000000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  concatenates_S1000000x64_S1000000x16_S1000000x16_S1000000x96_d1 : Shape.Concatenates [S1000000x64, S1000000x16, S1000000x16] S1000000x96 1
  transposes_S64x96_S96x64_1_0 : S64x96.Transposes [1, 0] S96x64
  bcast_S1x64_S1000000x64_0_1 : S1x64.BroadcastsInDim S1000000x64 (![0, 1] : Fin 2 → Fin S1000000x64.rank)
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x96_S96x64_S1000000x64_1_0_0_1_n_n_wf : DotDims.WF S1000000x96 S96x64 S1000000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x96_S96x64_S1000000x64_1_0_0_1_n_n : DotDims S1000000x96 S96x64 S1000000x64 where
  lhsContracting := [1]
  rhsContracting := [0]
  lhsNonContracting := [0]
  rhsNonContracting := [1]
  lhsBatch := []
  rhsBatch := []
  wf := dot_S1000000x96_S96x64_S1000000x64_1_0_0_1_n_n_wf

class Facts : Prop extends Facts₀ where

variable [Facts]
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.NodeBlock.lean ====
/-
  One block of the node embedding, entry by entry.

  The first kernel's body takes a block of 10000 rows of the node features `x`, the whole weight matrix `w`
  (64 × 128) and the bias row `b` (1 × 64) and stores `x · wᵀ + b`: it transposes `w`, multiplies on the matrix unit
  into an accumulator of zeros, and adds the bias row broadcast down the rows. At the exact extended reals its entry
  (p, q) is therefore `∑ c < 128, x (p, c) · w (q, c) + b (0, q)`.
-/
import proofs.«175632_j687194767627_2_alg».proof.Proof.Gen.KernelIdeal.Skeleton
import proofs.«175632_j687194767627_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.NodeEmbed

open Cert.KernelIdeal Cert.KernelIdeal.Gen Idealize.ShloMosaic Idealize.ShloMosaic.ValueIdx

/-- The transposed weight matrix at (c, q) is the weight matrix at (q, c). -/
theorem weightT_apply (w : Vec Ideal S64x128 .f32) (c : Fin 128) (q : Fin 64) :
    transpose S128x64 [1, 0] w Facts₀.transposes_S64x128_p1_0_S128x64 (ix2 c q) = w (ix2 q c) :=
  transpose_apply [1, 0] w Facts₀.transposes_S64x128_p1_0_S128x64 (ix2 c q) (ix2 q c) (fun b => match b with
    | ⟨0, _⟩ => rfl
    | ⟨1, _⟩ => rfl)

/-- The bias row broadcast down the 10000 rows of a block reads, at (p, q), the row's entry (0, q). -/
theorem biasRows_apply (b : Vec Ideal S1x64 .f32) (p : Fin 10000) (q : Fin 64) :
    broadcastTo S10000x64 (shapeCast S1x64 b Facts₀.shapeCasts_S1x64_S1x64) Facts₀.broadcasts_S1x64_S10000x64 (ix2 p q)
      = b (ix2 (0 : Fin 1) q) := by
  rw [shapeCast_self]
  exact broadcastTo_apply b Facts₀.broadcasts_S1x64_S10000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])

/-- The stored block at (p, q): the row of `x` against the row `q` of the weights, plus the bias at `q`. -/
theorem payload_apply (x : Vec Ideal S10000x128 .f32) (w : Vec Ideal S64x128 .f32) (b : Vec Ideal S1x64 .f32)
    (p : Fin 10000) (q : Fin 64) :
    k0_pay1 (F := Ideal) x w b (ix2 p q) = (∑ c : Fin 128, x (ix2 p c) * w (ix2 q c)) + b (ix2 (0 : Fin 1) q) := by
  unfold k0_pay1
  refine congrArg₂ (· + ·) ?_ (biasRows_apply b p q)
  refine (matmul_plain_zero_apply Facts₀.dot_S10000x128_S128x64_S10000x64_1_0_0_1_n_n_wf (some .fp32) x
    (transpose S128x64 [1, 0] w Facts₀.transposes_S64x128_p1_0_S128x64) p q).trans ?_
  exact Finset.sum_congr rfl fun c _ => congrArg (x (ix2 p c) * ·) (weightT_apply w c q)

end Cert.KernelIdeal.NodeEmbed

end
-- ==== Proof.NodeArray.lean ====
/-
  The node embedding as one array.

  The first pallas_call walks ten blocks of 10000 node rows. At point `t` it reads rows `10000·t … 10000·t + 9999` of the
  features, the whole weight matrix and the whole bias row, and writes back rows `10000·t …` of the result. The ten
  written blocks are disjoint and fill the 100000 rows, so when the call returns the result array holds, at (n, q),
  `∑ c < 128, x (n, c) · w (q, c) + b (0, q)` of the three arrays as the call found them.
-/
import proofs.«175632_j687194767627_2_alg».proof.Proof.Gen.KernelIdeal.Frame
import proofs.«175632_j687194767627_2_alg».proof.Proof.NodeBlock
import Idealize.ShloMosaic.Lib.Pipeline.Value

noncomputable section

open scoped BigOperators

namespace Cert.KernelIdeal.NodeEmbed

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The embedding of every node: entry (n, q) is row `n` of `x` against row `q` of `w`, plus `b (0, q)`. -/
def embed (x : Vec Ideal S100000x128 .f32) (w : Vec Ideal S64x128 .f32) (b : Vec Ideal S1x64 .f32) : Vec Ideal S100000x64 .f32 :=
  fun i => (∑ k : Fin 128, x (ix2 (i 0 : Fin 100000) k) * w (ix2 (i 1 : Fin 64) k)) + b (ix2 (0 : Fin 1) (i 1 : Fin 64))

theorem hz : (![0, 0] : Fin 2 → Nat) = fun _ => 0 := funext fun a => by fin_cases a <;> rfl

/-- The index maps over the ten points: the feature window and the result window sit at block row `t`; the weight and
    bias windows stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t` is rows `10000·t …` of the feature array. -/
theorem featureBlock_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : Vec Ideal S100000x128 .f32) i := by
  obtain ⟨e0, e1, -⟩ := idx_facts t
  unfold iblk0
  rw [View.read_apply]
  show V c main_arg0 _ = V c main_arg0 i
  congr 1
  funext a; apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight block at every point is the whole weight matrix. -/
theorem weightBlock_eq (c : Dev nD) (t : Fin cfg0.N) :
    (iblk0 V c 1 t : Vec Ideal S64x128 .f32) = (V c main_arg4 : Vec Ideal S64x128 .f32) := by
  obtain ⟨-, -, e0, e1, -⟩ := idx_facts t
  funext y
  unfold iblk0
  rw [View.read_apply]
  show V c main_arg4 _ = V c main_arg4 y
  congr 1
  funext a; apply Fin.ext
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- The bias block at every point is the whole bias row. -/
theorem biasBlock_eq (c : Dev nD) (t : Fin cfg0.N) :
    (iblk0 V c 2 t : Vec Ideal S1x64 .f32) = (V c main_v0 : Vec Ideal S1x64 .f32) := by
  obtain ⟨-, -, -, -, e0, e1, -⟩ := idx_facts t
  funext y
  unfold iblk0
  rw [View.read_apply]
  show V c main_v0 _ = V c main_v0 y
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- One stored entry against the whole arrays: entry (p, q) of the block computed from a feature block `x` whose row `p`
    is row `i₀` of `X` is entry `(i₀, q)` of the embedding of `X`. -/
theorem block_entry (x : Vec Ideal S10000x128 .f32) (w : Vec Ideal S64x128 .f32) (b : Vec Ideal S1x64 .f32)
    (X : Vec Ideal S100000x128 .f32) (p : Fin 10000) (q : Fin 64) (i : S100000x64.Idx)
    (hx : ∀ k : Fin 128, x (ix2 p k) = X (ix2 (i 0 : Fin 100000) k)) (h1 : (i 1).val = q.val) :
    k0_pay1 (F := Ideal) x w b (ix2 p q) = embed X w b i := by
  have hq : (i 1 : Fin 64) = q := Fin.ext h1
  rw [payload_apply]
  unfold embed
  rw [hq]
  exact congrArg₂ (· + ·) (Finset.sum_congr rfl fun k _ => congrArg (· * w (ix2 q k)) (hx k)) rfl

/-- The same at point `t` of the call: entry `j` of what the body stores there is entry `(10000·t + j₀, j₁)` of the
    embedding of the arrays as the call finds them. -/
theorem point_entry (c : Dev nD) (t : Fin cfg0.N) (j : S10000x64.Idx) (i : S100000x64.Idx)
    (h0 : (i 0).val = t.val * 10000 + (j 0).val) (h1 : (i 1).val = (j 1).val) :
    k0_pay1 (F := Ideal) (iblk0 V c 0 t) (V c main_arg4) (V c main_v0) j
      = embed (V c main_arg0) (V c main_arg4) (V c main_v0) i := by
  obtain ⟨p, q, rfl⟩ : ∃ (p : Fin 10000) (q : Fin 64), j = ix2 p q := ⟨j 0, j 1, eq_ix2 j⟩
  exact block_entry (iblk0 V c 0 t) (V c main_arg4) (V c main_v0) (V c main_arg0) p q i
    (fun k => featureBlock_apply V c t (ix2 p k) (ix2 (i 0 : Fin 100000) k) h0 rfl) h1

/-- WHAT POINT `t` WRITES BACK is block `t` of the embedding of the arrays as the call finds them. -/
theorem flushed_eq (c : Dev nD) (t : Fin cfg0.N) :
    (dat0 V c).flushed 3 t = ((cfg0.win 3).blk t).view.read (Elt Ideal) (embed (V c main_arg0) (V c main_arg4) (V c main_v0)) := by
  show (cfg0.win 3).cut (grid0.coords t) ((dat0 V c).after 3 t) = _
  rw [after0_3]
  unfold out0_3
  rw [View.canon_unit_zero hz]
  simp only [View.ld_unit_zero (S := S10000x128) hz, View.ld_unit_zero (S := S64x128) hz, View.ld_unit_zero (S := S1x64) hz]
  rw [weightBlock_eq V c t, biasBlock_eq V c t]
  obtain ⟨-, -, -, -, -, -, e0, e1⟩ := idx_facts t
  funext j
  rw [View.read_apply]
  refine point_entry V c t j _ ?_ ?_
  · show win0_3.index t (0 : Fin 2) * 10000 + 1 * (j 0).val = t.val * 10000 + (j 0).val
    rw [e0]; omega
  · show win0_3.index t (1 : Fin 2) * 64 + 1 * (j 1).val = (j 1).val
    rw [e1]; omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v2).slice (win0_3.rect t)).set ↔ _
  rw [View.set_slice_whole, Rect.mem_set_unit]
  exact Iff.rfl

/-- Every row of the result is in the block of the point `row / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e0, e1⟩ := idx_facts t
  refine ⟨t, flush0_3 t, ?_⟩
  rw [mem_blk]
  intro a
  have ht : t.val = (i 0).val / 10000 := rfl
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 64 ≤ (i 1).val ∧ (i 1).val < win0_3.index t (1 : Fin 2) * 64 + 64; rw [e1]; omega

/-- THE RESULT ARRAY when the first call returns: the embedding of the three arrays as the call found them. -/
theorem final (c : Dev nD) :
    (dat0 V c).arrAt 3 cfg0.N = embed (V c main_arg0) (V c main_arg4) (V c main_v0) :=
  (dat0 V c).arrAt_eq_of_cover 3 (embed (V c main_arg0) (V c main_arg4) (V c main_v0)) (fun t _ => flushed_eq V c t) cover

end Cert.KernelIdeal.NodeEmbed

end
-- ==== Proof.EdgeBlock.lean ====
/-
  One block of the per-edge output, entry by entry.

  The second kernel's body takes 5000 rows of the gathered source and destination embeddings `hs`, `hd` (64 wide), of the
  edge attributes `ea` and edge features `ef` (16 wide each), the three column slices `wh` (64 × 64), `wa`, `wf`
  (64 × 16) of the second weight matrix and the bias row `b` (1 × 64), and stores
  `max (hs − hd) 0 · whᵀ + ea · waᵀ + ef · wfᵀ + b`: three products on the matrix unit, each into an accumulator of zeros,
  added left to right, then the bias row broadcast down the rows. At the exact extended reals its entry (p, q) is
  `((∑ c < 64, max (hs (p,c) − hd (p,c)) 0 · wh (q,c) + ∑ c < 16, ea (p,c) · wa (q,c)) + ∑ c < 16, ef (p,c) · wf (q,c)) + b (0,q)`.
-/
import proofs.«175632_j687194767627_2_alg».proof.Proof.Gen.KernelIdeal.Skeleton
import proofs.«175632_j687194767627_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeOut

open Cert.KernelIdeal Cert.KernelIdeal.Gen Idealize.ShloMosaic Idealize.ShloMosaic.ValueIdx

/-- The zero the rectifier compares against, as the kernel spells it. -/
abbrev zero32 : Ideal .f32 := Scalar.ofBits (F := Ideal) .f32 0x00000000#32

/-- The transposed 64 × 64 slice at (c, q) is the slice at (q, c). -/
theorem whT_apply (w : Vec Ideal S64x64 .f32) (c : Fin 64) (q : Fin 64) :
    transpose S64x64 [1, 0] w Facts₀.transposes_S64x64_p1_0_S64x64 (ix2 c q) = w (ix2 q c) :=
  transpose_apply [1, 0] w Facts₀.transposes_S64x64_p1_0_S64x64 (ix2 c q) (ix2 q c) (fun b => match b with
    | ⟨0, _⟩ => rfl
    | ⟨1, _⟩ => rfl)

/-- A transposed 64 × 16 slice at (c, q) is the slice at (q, c). -/
theorem wT_apply (w : Vec Ideal S64x16 .f32) (c : Fin 16) (q : Fin 64) :
    transpose S16x64 [1, 0] w Facts₀.transposes_S64x16_p1_0_S16x64 (ix2 c q) = w (ix2 q c) :=
  transpose_apply [1, 0] w Facts₀.transposes_S64x16_p1_0_S16x64 (ix2 c q) (ix2 q c) (fun b => match b with
    | ⟨0, _⟩ => rfl
    | ⟨1, _⟩ => rfl)

/-- The bias row broadcast down the 5000 rows of a block reads, at (p, q), the row's entry (0, q). -/
theorem biasRows_apply (b : Vec Ideal S1x64 .f32) (p : Fin 5000) (q : Fin 64) :
    broadcastTo S5000x64 b Facts₀.broadcasts_S1x64_S5000x64 (ix2 p q) = b (ix2 (0 : Fin 1) q) :=
  broadcastTo_apply b Facts₀.broadcasts_S1x64_S5000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])

/-- The rectified difference against the 64 × 64 slice: entry (p, q) of the first product. -/
theorem diffProduct_apply (hs hd : FVec Ideal S5000x64 .f32) (wh : FVec Ideal S64x64 .f32) (p : Fin 5000) (q : Fin 64) :
    matmul dot_S5000x64_S64x64_S5000x64_1_0_0_1_n_n (some .fp32)
        (maximumf (subf hs hd) (broadcast S5000x64 zero32))
        (transpose S64x64 [1, 0] wh Facts₀.transposes_S64x64_p1_0_S64x64)
        (constant (F := Ideal) S5000x64 .f32 0x00000000#32) (ix2 p q)
      = ∑ c : Fin 64, max (hs (ix2 p c) - hd (ix2 p c)) zero32 * wh (ix2 q c) := by
  refine (matmul_plain_zero_apply Facts₀.dot_S5000x64_S64x64_S5000x64_1_0_0_1_n_n_wf (some .fp32)
    (maximumf (subf hs hd) (broadcast S5000x64 zero32))
    (transpose S64x64 [1, 0] wh Facts₀.transposes_S64x64_p1_0_S64x64) p q).trans ?_
  exact Finset.sum_congr rfl fun c _ => congrArg (max (hs (ix2 p c) - hd (ix2 p c)) zero32 * ·) (whT_apply wh c q)

/-- Sixteen edge columns against a 64 × 16 slice: entry (p, q) of the second and of the third product. -/
theorem sideProduct_apply (e : FVec Ideal S5000x16 .f32) (w : FVec Ideal S64x16 .f32) (p : Fin 5000) (q : Fin 64) :
    matmul dot_S5000x16_S16x64_S5000x64_1_0_0_1_n_n (some .fp32) e
        (transpose S16x64 [1, 0] w Facts₀.transposes_S64x16_p1_0_S16x64)
        (constant (F := Ideal) S5000x64 .f32 0x00000000#32) (ix2 p q)
      = ∑ c : Fin 16, e (ix2 p c) * w (ix2 q c) := by
  refine (matmul_plain_zero_apply Facts₀.dot_S5000x16_S16x64_S5000x64_1_0_0_1_n_n_wf (some .fp32) e
    (transpose S16x64 [1, 0] w Facts₀.transposes_S64x16_p1_0_S16x64) p q).trans ?_
  exact Finset.sum_congr rfl fun c _ => congrArg (e (ix2 p c) * ·) (wT_apply w c q)

/-- The stored block at (p, q). -/
theorem payload_apply (hs hd : Vec Ideal S5000x64 .f32) (wh : Vec Ideal S64x64 .f32) (ea : Vec Ideal S5000x16 .f32)
    (wa : Vec Ideal S64x16 .f32) (ef : Vec Ideal S5000x16 .f32) (wf : Vec Ideal S64x16 .f32) (b : Vec Ideal S1x64 .f32)
    (p : Fin 5000) (q : Fin 64) :
    k1_pay1 (F := Ideal) hs hd wh ea wa ef wf b (ix2 p q)
      = ((∑ c : Fin 64, max (hs (ix2 p c) - hd (ix2 p c)) zero32 * wh (ix2 q c)
            + ∑ c : Fin 16, ea (ix2 p c) * wa (ix2 q c))
          + ∑ c : Fin 16, ef (ix2 p c) * wf (ix2 q c))
        + b (ix2 (0 : Fin 1) q) := by
  unfold k1_pay1
  simp only [shapeCast_self]
  exact congrArg₂ (· + ·)
    (congrArg₂ (· + ·) (congrArg₂ (· + ·) (diffProduct_apply hs hd wh p q) (sideProduct_apply ea wa p q))
      (sideProduct_apply ef wf p q))
    (biasRows_apply b p q)

end Cert.KernelIdeal.EdgeOut

end
-- ==== Proof.EdgeArray.lean ====
/-
  The per-edge output as one array.

  The second pallas_call walks 200 blocks of 5000 edge rows. At point `t` it reads rows `5000·t … 5000·t + 4999` of the
  gathered source and destination embeddings, of the edge attributes and of the edge features, the three weight slices
  and the bias row whole, and writes back rows `5000·t …` of the result. The 200 written blocks are disjoint and fill
  the 1000000 rows, so when the call returns the result array holds, at (e, q),
  `((∑ c < 64, max (hs (e,c) − hd (e,c)) 0 · wh (q,c) + ∑ c < 16, ea (e,c) · wa (q,c)) + ∑ c < 16, ef (e,c) · wf (q,c)) + b (0,q)`
  of the eight arrays as the call found them.
-/
import proofs.«175632_j687194767627_2_alg».proof.Proof.Gen.KernelIdeal.Frame
import proofs.«175632_j687194767627_2_alg».proof.Proof.EdgeBlock
import Idealize.ShloMosaic.Lib.Pipeline.Value

noncomputable section

open scoped BigOperators

namespace Cert.KernelIdeal.EdgeOut

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The output for every edge, from the two gathered embeddings, the edge attributes and features, the three weight
    slices and the bias row. -/
def edges (hs hd : Vec Ideal S1000000x64 .f32) (ea ef : Vec Ideal S1000000x16 .f32) (wh : Vec Ideal S64x64 .f32)
    (wa wf : Vec Ideal S64x16 .f32) (b : Vec Ideal S1x64 .f32) : Vec Ideal S1000000x64 .f32 :=
  fun i => ((∑ k : Fin 64, max (hs (ix2 (i 0 : Fin 1000000) k) - hd (ix2 (i 0 : Fin 1000000) k)) zero32 * wh (ix2 (i 1 : Fin 64) k)
        + ∑ k : Fin 16, ea (ix2 (i 0 : Fin 1000000) k) * wa (ix2 (i 1 : Fin 64) k))
      + ∑ k : Fin 16, ef (ix2 (i 0 : Fin 1000000) k) * wf (ix2 (i 1 : Fin 64) k))
    + b (ix2 (0 : Fin 1) (i 1 : Fin 64))

theorem hz : (![0, 0] : Fin 2 → Nat) = fun _ => 0 := funext fun a => by fin_cases a <;> rfl

/-- The index maps over the 200 points: the four per-edge input windows and the result window sit at block row `t`;
    the weight slices and the bias row stay at the origin. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

/-- Window 0's block at point `t` is rows `5000·t …` of its array. -/
theorem sourceBlock_apply (c : Dev nD) (t : Fin cfg1.N) (y : S5000x64.Idx) (i : S1000000x64.Idx)
    (h0 : (i 0).val = t.val * 5000 + (y 0).val) (h1 : (i 1).val = (y 1).val) :
    (iblk1 V c 0 t : Vec Ideal S5000x64 .f32) y = (V c main_v20 : Vec Ideal S1000000x64 .f32) i := by
  obtain ⟨e0, e1, -⟩ := idx_facts t
  unfold iblk1
  rw [View.read_apply]
  show V c main_v20 _ = V c main_v20 i
  congr 1
  funext a; apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- Window 1's block at point `t` is rows `5000·t …` of its array. -/
theorem destBlock_apply (c : Dev nD) (t : Fin cfg1.N) (y : S5000x64.Idx) (i : S1000000x64.Idx)
    (h0 : (i 0).val = t.val * 5000 + (y 0).val) (h1 : (i 1).val = (y 1).val) :
    (iblk1 V c 1 t : Vec Ideal S5000x64 .f32) y = (V c main_v27 : Vec Ideal S1000000x64 .f32) i := by
  obtain ⟨-, -, e0, e1, -⟩ := idx_facts t
  unfold iblk1
  rw [View.read_apply]
  show V c main_v27 _ = V c main_v27 i
  congr 1
  funext a; apply Fin.ext
  match a with
  | ⟨0, _⟩ => show win1_1.index t (0 : Fin 2) * 5000 + 1 * (y 0).val = (i 0).val; rw [e0, h0]; omega
  | ⟨1, _⟩ => show win1_1.index t (1 : Fin 2) * 64 + 1 * (y 1).val = (i 1).val; rw [e1, h1]; omega

/-- Window 2's block at point `t` is rows `5000·t …` of its array. -/
theorem attrBlock_apply (c : Dev nD) (t : Fin cfg1.N) (y : S5000x16.Idx) (i : S1000000x16.Idx)
    (h0 : (i 0).val = t.val * 5000 + (y 0).val) (h1 : (i 1).val = (y 1).val) :
    (iblk1 V c 2 t : Vec Ideal S5000x16 .f32) y = (V c main_arg3 : Vec Ideal S1000000x16 .f32) i := by
  obtain ⟨-, -, -, -, e0, e1, -⟩ := idx_facts t
  unfold iblk1
  rw [View.read_apply]
  show V c main_arg3 _ = V c main_arg3 i
  congr 1
  funext a; apply Fin.ext
  match a with
  | ⟨0, _⟩ => show win1_2.index t (0 : Fin 2) * 5000 + 1 * (y 0).val = (i 0).val; rw [e0, h0]; omega
  | ⟨1, _⟩ => show win1_2.index t (1 : Fin 2) * 16 + 1 * (y 1).val = (i 1).val; rw [e1, h1]; omega

/-- Window 3's block at point `t` is rows `5000·t …` of its array. -/
theorem featBlock_apply (c : Dev nD) (t : Fin cfg1.N) (y : S5000x16.Idx) (i : S1000000x16.Idx)
    (h0 : (i 0).val = t.val * 5000 + (y 0).val) (h1 : (i 1).val = (y 1).val) :
    (iblk1 V c 3 t : Vec Ideal S5000x16 .f32) y = (V c main_arg2 : Vec Ideal S1000000x16 .f32) i := by
  obtain ⟨-, -, -, -, -, -, e0, e1, -⟩ := idx_facts t
  unfold iblk1
  rw [View.read_apply]
  show V c main_arg2 _ = V c main_arg2 i
  congr 1
  funext a; apply Fin.ext
  match a with
  | ⟨0, _⟩ => show win1_3.index t (0 : Fin 2) * 5000 + 1 * (y 0).val = (i 0).val; rw [e0, h0]; omega
  | ⟨1, _⟩ => show win1_3.index t (1 : Fin 2) * 16 + 1 * (y 1).val = (i 1).val; rw [e1, h1]; omega

/-- Window 4's block at every point is its whole array. -/
theorem sliceH_eq (c : Dev nD) (t : Fin cfg1.N) :
    (iblk1 V c 4 t : Vec Ideal S64x64 .f32) = (V c main_v28 : Vec Ideal S64x64 .f32) := by
  obtain ⟨-, -, -, -, -, -, -, -, e0, e1, -⟩ := idx_facts t
  funext y
  unfold iblk1
  rw [View.read_apply]
  show V c main_v28 _ = V c main_v28 y
  congr 1
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- Window 5's block at every point is its whole array. -/
theorem sliceA_eq (c : Dev nD) (t : Fin cfg1.N) :
    (iblk1 V c 5 t : Vec Ideal S64x16 .f32) = (V c main_v29 : Vec Ideal S64x16 .f32) := by
  obtain ⟨-, -, -, -, -, -, -, -, -, -, e0, e1, -⟩ := idx_facts t
  funext y
  unfold iblk1
  rw [View.read_apply]
  show V c main_v29 _ = V c main_v29 y
  congr 1
  funext a; apply Fin.ext
  match a with
  | ⟨0, _⟩ => show win1_5.index t (0 : Fin 2) * 64 + 1 * (y 0).val = (y 0).val; rw [e0]; omega
  | ⟨1, _⟩ => show win1_5.index t (1 : Fin 2) * 16 + 1 * (y 1).val = (y 1).val; rw [e1]; omega

/-- Window 6's block at every point is its whole array. -/
theorem sliceF_eq (c : Dev nD) (t : Fin cfg1.N) :
    (iblk1 V c 6 t : Vec Ideal S64x16 .f32) = (V c main_v30 : Vec Ideal S64x16 .f32) := by
  obtain ⟨-, -, -, -, -, -, -, -, -, -, -, -, e0, e1, -⟩ := idx_facts t
  funext y
  unfold iblk1
  rw [View.read_apply]
  show V c main_v30 _ = V c main_v30 y
  congr 1
  funext a; apply Fin.ext
  match a with
  | ⟨0, _⟩ => show win1_6.index t (0 : Fin 2) * 64 + 1 * (y 0).val = (y 0).val; rw [e0]; omega
  | ⟨1, _⟩ => show win1_6.index t (1 : Fin 2) * 16 + 1 * (y 1).val = (y 1).val; rw [e1]; omega

/-- Window 7's block at every point is its whole array. -/
theorem biasRow_eq (c : Dev nD) (t : Fin cfg1.N) :
    (iblk1 V c 7 t : Vec Ideal S1x64 .f32) = (V c main_v1 : Vec Ideal S1x64 .f32) := by
  obtain ⟨-, -, -, -, -, -, -, -, -, -, -, -, -, -, e0, e1, -⟩ := idx_facts t
  funext y
  unfold iblk1
  rw [View.read_apply]
  show V c main_v1 _ = V c main_v1 y
  congr 1
  funext a; apply Fin.ext
  match a with
  | ⟨0, _⟩ => show win1_7.index t (0 : Fin 2) * 1 + 1 * (y 0).val = (y 0).val; rw [e0]; omega
  | ⟨1, _⟩ => show win1_7.index t (1 : Fin 2) * 64 + 1 * (y 1).val = (y 1).val; rw [e1]; omega

/-- One stored entry against the whole arrays: entry (p, q) of the block computed from row blocks whose row `p` is row
    `i₀` of the whole arrays is entry `(i₀, q)` of `edges` of the whole arrays. -/
theorem block_entry (hs hd : Vec Ideal S5000x64 .f32) (ea ef : Vec Ideal S5000x16 .f32) (wh : Vec Ideal S64x64 .f32)
    (wa wf : Vec Ideal S64x16 .f32) (b : Vec Ideal S1x64 .f32)
    (HS HD : Vec Ideal S1000000x64 .f32) (EA EF : Vec Ideal S1000000x16 .f32) (p : Fin 5000) (q : Fin 64) (i : S1000000x64.Idx)
    (h_hs : ∀ k : Fin 64, hs (ix2 p k) = HS (ix2 (i 0 : Fin 1000000) k))
    (h_hd : ∀ k : Fin 64, hd (ix2 p k) = HD (ix2 (i 0 : Fin 1000000) k))
    (h_ea : ∀ k : Fin 16, ea (ix2 p k) = EA (ix2 (i 0 : Fin 1000000) k))
    (h_ef : ∀ k : Fin 16, ef (ix2 p k) = EF (ix2 (i 0 : Fin 1000000) k))
    (h1 : (i 1).val = q.val) :
    k1_pay1 (F := Ideal) hs hd wh ea wa ef wf b (ix2 p q) = edges HS HD EA EF wh wa wf b i := by
  have hq : (i 1 : Fin 64) = q := Fin.ext h1
  rw [payload_apply]
  unfold edges
  rw [hq]
  simp only [h_hs, h_hd, h_ea, h_ef]

/-- The same at point `t` of the call: entry `j` of what the body stores there is entry `(5000·t + j₀, j₁)` of `edges` of
    the arrays as the call finds them. -/
theorem point_entry (c : Dev nD) (t : Fin cfg1.N) (j : S5000x64.Idx) (i : S1000000x64.Idx)
    (h0 : (i 0).val = t.val * 5000 + (j 0).val) (h1 : (i 1).val = (j 1).val) :
    k1_pay1 (F := Ideal) (iblk1 V c 0 t) (iblk1 V c 1 t) (V c main_v28) (iblk1 V c 2 t) (V c main_v29) (iblk1 V c 3 t) (V c main_v30) (V c main_v1) j
      = edges (V c main_v20) (V c main_v27) (V c main_arg3) (V c main_arg2) (V c main_v28) (V c main_v29) (V c main_v30) (V c main_v1) i := by
  obtain ⟨p, q, rfl⟩ : ∃ (p : Fin 5000) (q : Fin 64), j = ix2 p q := ⟨j 0, j 1, eq_ix2 j⟩
  exact block_entry (iblk1 V c 0 t) (iblk1 V c 1 t) (iblk1 V c 2 t) (iblk1 V c 3 t) (V c main_v28) (V c main_v29) (V c main_v30) (V c main_v1)
    (V c main_v20) (V c main_v27) (V c main_arg3) (V c main_arg2) p q i
    (fun k => sourceBlock_apply V c t (ix2 p k) (ix2 (i 0 : Fin 1000000) k) h0 rfl)
    (fun k => destBlock_apply V c t (ix2 p k) (ix2 (i 0 : Fin 1000000) k) h0 rfl)
    (fun k => attrBlock_apply V c t (ix2 p k) (ix2 (i 0 : Fin 1000000) k) h0 rfl)
    (fun k => featBlock_apply V c t (ix2 p k) (ix2 (i 0 : Fin 1000000) k) h0 rfl) h1

/-- WHAT POINT `t` WRITES BACK is block `t` of `edges` of the arrays as the call finds them. -/
theorem flushed_eq (c : Dev nD) (t : Fin cfg1.N) :
    (dat1 V c).flushed 8 t = ((cfg1.win 8).blk t).view.read (Elt Ideal)
      (edges (V c main_v20) (V c main_v27) (V c main_arg3) (V c main_arg2) (V c main_v28) (V c main_v29) (V c main_v30) (V c main_v1)) := by
  show (cfg1.win 8).cut (grid1.coords t) ((dat1 V c).after 8 t) = _
  rw [after1_8]
  unfold out1_8
  rw [View.canon_unit_zero hz]
  simp only [View.ld_unit_zero (S := S5000x64) hz, View.ld_unit_zero (S := S5000x16) hz, View.ld_unit_zero (S := S64x64) hz,
    View.ld_unit_zero (S := S64x16) hz, View.ld_unit_zero (S := S1x64) hz]
  rw [sliceH_eq V c t, sliceA_eq V c t, sliceF_eq V c t, biasRow_eq V c t]
  obtain ⟨-, -, -, -, -, -, -, -, -, -, -, -, -, -, -, -, e0, e1⟩ := idx_facts t
  funext j
  rw [View.read_apply]
  refine point_entry V c t j _ ?_ ?_
  · show win1_8.index t (0 : Fin 2) * 5000 + 1 * (j 0).val = t.val * 5000 + (j 0).val
    rw [e0]; omega
  · show win1_8.index t (1 : Fin 2) * 64 + 1 * (j 1).val = (j 1).val
    rw [e1]; omega

/-- An index of the result array is in point `t`'s block iff each coordinate is in the block's range on its axis. -/
theorem mem_blk (t : Fin cfg1.N) (i : S1000000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v31).slice (win1_8.rect t)).set ↔ _
  rw [View.set_slice_whole, Rect.mem_set_unit]
  exact Iff.rfl

/-- Every row of the result is in the block of the point `row / 5000`. -/
theorem cover (i : S1000000x64.Idx) : ∃ t : Fin cfg1.N, (cfg1.win 8).flush t = true ∧ i ∈ ((cfg1.win 8).blk t).view.set := by
  have hi0 : (i 0).val < 1000000 := (i 0).isLt
  have hi1 : (i 1).val < 64 := (i 1).isLt
  have hN : cfg1.N = 200 := N_1
  let t : Fin cfg1.N := ⟨(i 0).val / 5000, by rw [hN]; omega⟩
  obtain ⟨-, -, -, -, -, -, -, -, -, -, -, -, -, -, -, -, e0, e1⟩ := idx_facts t
  refine ⟨t, flush1_8 t, ?_⟩
  rw [mem_blk]
  intro a
  have ht : t.val = (i 0).val / 5000 := rfl
  match a with
  | ⟨0, _⟩ => show win1_8.index t (0 : Fin 2) * 5000 ≤ (i 0).val ∧ (i 0).val < win1_8.index t (0 : Fin 2) * 5000 + 5000; rw [e0, ht]; omega
  | ⟨1, _⟩ => show win1_8.index t (1 : Fin 2) * 64 ≤ (i 1).val ∧ (i 1).val < win1_8.index t (1 : Fin 2) * 64 + 64; rw [e1]; omega

/-- THE RESULT ARRAY when the second call returns: `edges` of the eight arrays as the call found them. -/
theorem final (c : Dev nD) :
    (dat1 V c).arrAt 8 cfg1.N
      = edges (V c main_v20) (V c main_v27) (V c main_arg3) (V c main_arg2) (V c main_v28) (V c main_v29) (V c main_v30) (V c main_v1) :=
  (dat1 V c).arrAt_eq_of_cover 8 _ (fun t _ => flushed_eq V c t) cover

end Cert.KernelIdeal.EdgeOut

end
-- ==== Proof.KernelRun.lean ====
/-
  The idealized kernel's run with its result array named.

  @main is four segments: the two reshapes of the bias vectors, the first pallas_call, the stretch of host operations
  that computes the index columns, gathers the embedding rows and slices the second weight matrix, and the second
  pallas_call. Every weakly fair execution terminates, and in the final memory every unscoped buffer holds the contents at
  the last segment boundary (`final_at_boundary`: stated for any property of the final memory that follows from that).
  Read at the result buffer, that is what the second call's write-backs leave of its output array; read at an argument,
  its launch contents (`run`).
-/
import proofs.«175632_j687194767627_2_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Whatever holds of every memory that agrees, on each core's unscoped buffers, with the contents at the last segment
    boundary, holds at the end of every weakly fair execution of @main — and every such execution ends, nothing
    faulting. The four segments and their thread states are the generated ones; the launch is the several-regions
    theorem of the pipeline library: the launch element deals the staging cells' tokens and nothing else, each core
    starts holding its unscoped buffers at the launch contents with its generator register and owing nothing, and the
    last thread state, read against the final memory, gives the agreement. -/
theorem final_at_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element IS the library's element at the staging cells; the per-core extra resource is empty
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- per core: the unscoped buffers at the launch memory are the held buffers at `W0`; keep the register and the
      -- empty debt, drop the rest
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => ∀ b ∈ Pipeline.ucRefs τ sig, s.mem (((c : Thread nD τ)).1, b) = W4 m ρ c b)
    (hfin := fun c s' => by
      -- the held buffers of the last thread state, read against the state interpretation
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := hQ)

/-- Every weakly fair execution of @main terminates, nothing faulting; the result buffer ends at the last boundary's
    contents, the arguments as launched. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  final_at_boundary m ρ fun s h c =>
    ⟨h c _ (mem_uc main_v31 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩

end Cert.KernelIdeal.Valued

end
-- ==== Proof.KernelGlue.lean ====
/-
  The idealized kernel's result array as one function of its arguments.

  Between and around the two pallas_calls the host reshapes the two bias vectors into rows, and — after the first call —
  takes the two rows of the edge list, finds the smallest source id, turns each row into a column of node indices (each
  id less that minimum, a negative result moved up by the number of nodes), gathers the rows of the node embedding at
  those indices, and cuts the second weight matrix into its column stretches 0–63, 64–79 and 80–95. None of these writes
  an argument, and the first call writes only its result. So the arrays the second call finds are those functions of the
  arguments and of the embedding the first call left, and the result is `edges` of them.
-/
import proofs.«175632_j687194767627_2_alg».proof.Proof.Gen.KernelIdeal.Frame
import proofs.«175632_j687194767627_2_alg».proof.Proof.NodeArray
import proofs.«175632_j687194767627_2_alg».proof.Proof.EdgeArray
import proofs.«175632_j687194767627_2_alg».proof.Proof.KernelRun
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo

section Indices
variable {F : FTy → Type} [FloatOps F]

/-- Row 0 of the edge list: the source ids. -/
def sourceIds (ei : (⟨S2x1000000, .i32⟩ : BufTy).Contents (Elt F)) : (⟨S1000000, .i32⟩ : BufTy).Contents (Elt F) :=
  shapeCast _ (extractStridedSlice S1x1000000 ![0, 0] ei slices_S2x1000000_S1x1000000_0_0) shapeCasts_S1x1000000_S1000000

/-- Row 1 of the edge list: the destination ids. -/
def destIds (ei : (⟨S2x1000000, .i32⟩ : BufTy).Contents (Elt F)) : (⟨S1000000, .i32⟩ : BufTy).Contents (Elt F) :=
  shapeCast _ (extractStridedSlice S1x1000000 ![1, 0] ei slices_S2x1000000_S1x1000000_1_0) shapeCasts_S1x1000000_S1000000

/-- The smallest source id. -/
def startId (ei : (⟨S2x1000000, .i32⟩ : BufTy).Contents (Elt F)) : (⟨S_, .i32⟩ : BufTy).Contents (Elt F) :=
  Host.reduce IntOp.minsi (sourceIds ei) (constantI S_ 32 2147483647#32) reducesTo_S1000000_S_d0 h_S_

/-- Ids less the start id, a negative one moved up by the number of nodes, as a column of row indices. -/
def nodeColumn (ids : (⟨S1000000, .i32⟩ : BufTy).Contents (Elt F)) (s : (⟨S_, .i32⟩ : BufTy).Contents (Elt F)) : (⟨S1000000x1, .i32⟩ : BufTy).Contents (Elt F) :=
  broadcastInDim S1000000x1 ![0] bcast_S1000000_S1000000x1_0
    (select (cmpi .slt (subi ids (broadcastInDim S1000000 ![] bcast_S_S1000000 s)) (broadcastInDim S1000000 ![] bcast_S_S1000000 (constantI S_ 32 0#32)))
      (addi (subi ids (broadcastInDim S1000000 ![] bcast_S_S1000000 s)) (broadcastInDim S1000000 ![] bcast_S_S1000000 (constantI S_ 32 100000#32)))
      (subi ids (broadcastInDim S1000000 ![] bcast_S_S1000000 s)))

/-- The rows of `h` at a column of node indices. -/
def rowsAt (h : (⟨S100000x64, .f32⟩ : BufTy).Contents (Elt F)) (col : (⟨S1000000x1, .i32⟩ : BufTy).Contents (Elt F)) : (⟨S1000000x64, .f32⟩ : BufTy).Contents (Elt F) :=
  Host.gather gather_S100000x64_S1000000x1_S1000000x64_1_0_n_n_0_1_164 h col

/-- A bias vector as a row. -/
def asRow (b : (⟨S64, .f32⟩ : BufTy).Contents (Elt F)) : (⟨S1x64, .f32⟩ : BufTy).Contents (Elt F) :=
  shapeCast _ b shapeCasts_S64_S1x64

end Indices

variable (m : (ℓ : Loc nD τ sig) → Buf (Elt Ideal) ℓ) (ρ : Dev nD → PrngReg) (c : Dev nD)

/-! ## At the first call's entry -/

/-- The two reshapes write the bias rows and nothing else. -/
theorem first_stretch :
    W1 m ρ c (Proc.devRef .tc main_arg0) = m ((c : Thread nD τ).loc main_arg0)
    ∧ W1 m ρ c (Proc.devRef .tc main_arg1) = m ((c : Thread nD τ).loc main_arg1)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg6) = m ((c : Thread nD τ).loc main_arg6)
    ∧ W1 m ρ c (Proc.devRef .tc main_v0) = asRow (F := Ideal) (m ((c : Thread nD τ).loc main_arg5))
    ∧ W1 m ρ c (Proc.devRef .tc main_v1) = asRow (F := Ideal) (m ((c : Thread nD τ).loc main_arg7)) := by
  refine ⟨?_, ?_, ?_, ?_, ?_, ?_, ?_, ?_⟩ <;>
  · dsimp only [W1, hostOps0]
    after_results
    try rfl

/-! ## After the first call -/

/-- The first call leaves the node embedding in its result array; -/
theorem embedding_after_first_call :
    W2 m ρ c (Proc.devRef .tc main_v2)
      = NodeEmbed.embed (m ((c : Thread nD τ).loc main_arg0)) (m ((c : Thread nD τ).loc main_arg4)) (asRow (F := Ideal) (m ((c : Thread nD τ).loc main_arg5))) := by
  obtain ⟨h0, -, -, -, h4, -, hv0, -⟩ := first_stretch m ρ c
  refine (W2_arr m ρ c 3).trans ((NodeEmbed.final (V1 m ρ) c).trans ?_)
  show NodeEmbed.embed (W1 m ρ c (Proc.devRef .tc main_arg0)) (W1 m ρ c (Proc.devRef .tc main_arg4)) (W1 m ρ c (Proc.devRef .tc main_v0)) = _
  rw [h0, h4, hv0]

/-- and every buffer it does not stage is as the first stretch left it. -/
theorem rest_after_first_call :
    W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg3) = m ((c : Thread nD τ).loc main_arg3)
    ∧ W2 m ρ c (Proc.devRef .tc main_arg6) = m ((c : Thread nD τ).loc main_arg6)
    ∧ W2 m ρ c (Proc.devRef .tc main_v1) = asRow (F := Ideal) (m ((c : Thread nD τ).loc main_arg7)) := by
  obtain ⟨-, h1, h2, h3, -, h6, -, hv1⟩ := first_stretch m ρ c
  exact ⟨(W2_of_ne m ρ c main_arg1 (by decide)).trans h1, (W2_of_ne m ρ c main_arg2 (by decide)).trans h2,
    (W2_of_ne m ρ c main_arg3 (by decide)).trans h3, (W2_of_ne m ρ c main_arg6 (by decide)).trans h6,
    (W2_of_ne m ρ c main_v1 (by decide)).trans hv1⟩

/-! ## At the second call's entry -/

/-- The second stretch, from the contents `W2` the first call leaves. -/
theorem second_stretch :
    W3 m ρ c (Proc.devRef .tc main_v20)
        = rowsAt (F := Ideal) (W2 m ρ c (Proc.devRef .tc main_v2))
            (nodeColumn (sourceIds (W2 m ρ c (Proc.devRef .tc main_arg1))) (startId (W2 m ρ c (Proc.devRef .tc main_arg1))))
    ∧ W3 m ρ c (Proc.devRef .tc main_v27)
        = rowsAt (F := Ideal) (W2 m ρ c (Proc.devRef .tc main_v2))
            (nodeColumn (destIds (W2 m ρ c (Proc.devRef .tc main_arg1))) (startId (W2 m ρ c (Proc.devRef .tc main_arg1))))
    ∧ W3 m ρ c (Proc.devRef .tc main_arg3) = W2 m ρ c (Proc.devRef .tc main_arg3)
    ∧ W3 m ρ c (Proc.devRef .tc main_arg2) = W2 m ρ c (Proc.devRef .tc main_arg2)
    ∧ W3 m ρ c (Proc.devRef .tc main_v28)
        = extractStridedSlice S64x64 ![0, 0] (W2 m ρ c (Proc.devRef .tc main_arg6)) slices_S64x96_S64x64_0_0
    ∧ W3 m ρ c (Proc.devRef .tc main_v29)
        = extractStridedSlice S64x16 ![0, 64] (W2 m ρ c (Proc.devRef .tc main_arg6)) slices_S64x96_S64x16_0_64
    ∧ W3 m ρ c (Proc.devRef .tc main_v30)
        = extractStridedSlice S64x16 ![0, 80] (W2 m ρ c (Proc.devRef .tc main_arg6)) slices_S64x96_S64x16_0_80
    ∧ W3 m ρ c (Proc.devRef .tc main_v1) = W2 m ρ c (Proc.devRef .tc main_v1) := by
  refine ⟨?_, ?_, ?_, ?_, ?_, ?_, ?_, ?_⟩ <;>
  · dsimp only [W3, hostOps1]
    after_results_simp
    try rfl

/-! ## The result -/

/-- The kernel's result as a function of the eight arguments (in the program's argument order: x, edge list, edge
    features, edge attributes, W1, b1, W2, b2). -/
def result (x : Vec Ideal S100000x128 .f32) (ei : (⟨S2x1000000, .i32⟩ : BufTy).Contents (Elt Ideal)) (ef ea : Vec Ideal S1000000x16 .f32)
    (w1 : Vec Ideal S64x128 .f32) (b1 : Vec Ideal S64 .f32) (w2 : Vec Ideal S64x96 .f32) (b2 : Vec Ideal S64 .f32) : Vec Ideal S1000000x64 .f32 :=
  EdgeOut.edges
    (rowsAt (F := Ideal) (NodeEmbed.embed x w1 (asRow (F := Ideal) b1)) (nodeColumn (sourceIds ei) (startId ei)))
    (rowsAt (F := Ideal) (NodeEmbed.embed x w1 (asRow (F := Ideal) b1)) (nodeColumn (destIds ei) (startId ei)))
    ea ef
    (extractStridedSlice S64x64 ![0, 0] w2 slices_S64x96_S64x64_0_0)
    (extractStridedSlice S64x16 ![0, 64] w2 slices_S64x96_S64x16_0_64)
    (extractStridedSlice S64x16 ![0, 80] w2 slices_S64x96_S64x16_0_80)
    (asRow (F := Ideal) b2)

/-- What the last segment boundary holds at the result buffer. -/
theorem boundary_result :
    W4 m ρ c (Proc.devRef .tc main_v31)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨s20, s27, s3, s2, s28, s29, s30, sv1⟩ := second_stretch m ρ c
  obtain ⟨r1, r2, r3, r6, rv1⟩ := rest_after_first_call m ρ c
  refine (W4_arr m ρ c 8).trans ((EdgeOut.final (V3 m ρ) c).trans ?_)
  show EdgeOut.edges (W3 m ρ c (Proc.devRef .tc main_v20)) (W3 m ρ c (Proc.devRef .tc main_v27))
      (W3 m ρ c (Proc.devRef .tc main_arg3)) (W3 m ρ c (Proc.devRef .tc main_arg2))
      (W3 m ρ c (Proc.devRef .tc main_v28)) (W3 m ρ c (Proc.devRef .tc main_v29)) (W3 m ρ c (Proc.devRef .tc main_v30))
      (W3 m ρ c (Proc.devRef .tc main_v1)) = _
  rw [s20, s27, s3, s2, s28, s29, s30, sv1, embedding_after_first_call m ρ c, r1, r2, r3, r6, rv1]
  rfl

/-- The run: the result array at `result` of the arguments' launch contents, the arguments unchanged. -/
theorem run : θ_run defs (onTc (τ := τ) (main (F := Ideal))) ⟨m, fun _ => 0, ρ⟩ (fun r => ∀ c : Dev nD,
      r.2.mem ((c.tc : Thread nD τ).loc main_v31)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (boundary_result m ρ c), (h c).2⟩) (Valued.run (F := Ideal) m ρ)

end Cert.KernelIdeal.Glue

end
-- ==== Proof.RefRun.lean ====
/-
  The reference program's run, read back.

  The reference is a straight line of 45 array operations and no kernel. Its first 39 compute, from the edge list, the
  smallest source id and the two columns of node indices (each id less that minimum, a negative result moved up by the
  number of nodes); from the node features, the node embedding `x · W1ᵀ + b1`; and the rectified difference
  `max (h[src] − h[dst]) 0` of the gathered rows. Its last six join that with the edge attributes and edge features side by
  side, multiply by `W2ᵀ` and add `b2`. Every weakly fair execution ends with the result array at that composed function of
  the argument arrays, and the arguments unchanged.

  The line is cut after the 39th operation: what a buffer holds after the whole line is what it holds after the second
  stretch run from the contents the first stretch leaves (`after_append`).
-/
import proofs.«175632_j687194767627_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The result as a function of the arguments -/

/-- Row 0 of the edge list: the source ids. -/
def sourceIds (ei : (⟨S2x1000000, .i32⟩ : BufTy).Contents (Elt F)) : (⟨S1000000, .i32⟩ : BufTy).Contents (Elt F) :=
  shapeCast _ (extractStridedSlice S1x1000000 ![0, 0] ei slices_S2x1000000_S1x1000000_0_0) shapeCasts_S1x1000000_S1000000

/-- Row 1 of the edge list: the destination ids. -/
def destIds (ei : (⟨S2x1000000, .i32⟩ : BufTy).Contents (Elt F)) : (⟨S1000000, .i32⟩ : BufTy).Contents (Elt F) :=
  shapeCast _ (extractStridedSlice S1x1000000 ![1, 0] ei slices_S2x1000000_S1x1000000_1_0) shapeCasts_S1x1000000_S1000000

/-- The smallest source id. -/
def startId (ei : (⟨S2x1000000, .i32⟩ : BufTy).Contents (Elt F)) : (⟨S_, .i32⟩ : BufTy).Contents (Elt F) :=
  Host.reduce IntOp.minsi (sourceIds ei) (constantI S_ 32 2147483647#32) reducesTo_S1000000_S_d0 h_S_

/-- Ids less the start id, a negative one moved up by the number of nodes, as a column of row indices. -/
def nodeColumn (ids : (⟨S1000000, .i32⟩ : BufTy).Contents (Elt F)) (s : (⟨S_, .i32⟩ : BufTy).Contents (Elt F)) : (⟨S1000000x1, .i32⟩ : BufTy).Contents (Elt F) :=
  broadcastInDim S1000000x1 ![0] bcast_S1000000_S1000000x1_0
    (select (cmpi .slt (subi ids (broadcastInDim S1000000 ![] bcast_S_S1000000 s)) (broadcastInDim S1000000 ![] bcast_S_S1000000 (constantI S_ 32 0#32)))
      (addi (subi ids (broadcastInDim S1000000 ![] bcast_S_S1000000 s)) (broadcastInDim S1000000 ![] bcast_S_S1000000 (constantI S_ 32 100000#32)))
      (subi ids (broadcastInDim S1000000 ![] bcast_S_S1000000 s)))

/-- The node embedding `x · W1ᵀ + b1`. -/
def nodeEmbed (x : (⟨S100000x128, .f32⟩ : BufTy).Contents (Elt F)) (w1 : (⟨S64x128, .f32⟩ : BufTy).Contents (Elt F)) (b1 : (⟨S64, .f32⟩ : BufTy).Contents (Elt F)) : (⟨S100000x64, .f32⟩ : BufTy).Contents (Elt F) :=
  addf (Host.dotGeneral dot_S100000x128_S128x64_S100000x64_1_0_0_1_n_n none x (transpose S128x64 [1, 0] w1 transposes_S64x128_S128x64_1_0))
    (broadcastInDim S100000x64 ![0, 1] bcast_S1x64_S100000x64_0_1 (broadcastInDim S1x64 ![1] bcast_S64_S1x64_1 b1))

/-- `max (h[src] − h[dst]) 0`, from the embedding and the two index columns. -/
def rectified (h : (⟨S100000x64, .f32⟩ : BufTy).Contents (Elt F)) (src dst : (⟨S1000000x1, .i32⟩ : BufTy).Contents (Elt F)) : (⟨S1000000x64, .f32⟩ : BufTy).Contents (Elt F) :=
  maximumf (subf (Host.gather gather_S100000x64_S1000000x1_S1000000x64_1_0_n_n_0_1_164 h src)
      (Host.gather gather_S100000x64_S1000000x1_S1000000x64_1_0_n_n_0_1_164 h dst))
    (broadcastInDim S1000000x64 ![] bcast_S_S1000000x64 (constant S_ .f32 0x00000000#32))

/-- `[r | ea | ef] · W2ᵀ + b2`. -/
def edgeOut (r : (⟨S1000000x64, .f32⟩ : BufTy).Contents (Elt F)) (ea ef : (⟨S1000000x16, .f32⟩ : BufTy).Contents (Elt F)) (w2 : (⟨S64x96, .f32⟩ : BufTy).Contents (Elt F)) (b2 : (⟨S64, .f32⟩ : BufTy).Contents (Elt F)) : (⟨S1000000x64, .f32⟩ : BufTy).Contents (Elt F) :=
  addf (Host.dotGeneral dot_S1000000x96_S96x64_S1000000x64_1_0_0_1_n_n none
      (concatenate S1000000x96 1 [⟨S1000000x64, r⟩, ⟨S1000000x16, ea⟩, ⟨S1000000x16, ef⟩] concatenates_S1000000x64_S1000000x16_S1000000x16_S1000000x96_d1)
      (transpose S96x64 [1, 0] w2 transposes_S64x96_S96x64_1_0))
    (broadcastInDim S1000000x64 ![0, 1] bcast_S1x64_S1000000x64_0_1 (broadcastInDim S1x64 ![1] bcast_S64_S1x64_1 b2))

/-- The whole reference: the result array as a function of the eight argument arrays (in the program's argument order:
    x, edge list, edge features, edge attributes, W1, b1, W2, b2). -/
def result (x : (⟨S100000x128, .f32⟩ : BufTy).Contents (Elt F)) (ei : (⟨S2x1000000, .i32⟩ : BufTy).Contents (Elt F)) (ef ea : (⟨S1000000x16, .f32⟩ : BufTy).Contents (Elt F))
    (w1 : (⟨S64x128, .f32⟩ : BufTy).Contents (Elt F)) (b1 : (⟨S64, .f32⟩ : BufTy).Contents (Elt F)) (w2 : (⟨S64x96, .f32⟩ : BufTy).Contents (Elt F)) (b2 : (⟨S64, .f32⟩ : BufTy).Contents (Elt F)) : (⟨S1000000x64, .f32⟩ : BufTy).Contents (Elt F) :=
  edgeOut (rectified (nodeEmbed x w1 b1) (nodeColumn (sourceIds ei) (startId ei)) (nodeColumn (destIds ei) (startId ei))) ea ef w2 b2

/-! ## The program as two stretches of operations -/

/-- The first 39 operations: the index columns, the node embedding, the rectified difference (the called `relu`'s three
    operations stand in its call's place). -/
abbrev opsPre : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    nullary main_c (constantI S_ 32 2147483647#32),
    binary main_v1 main_c main_v2 ((fun x v => Host.reduce IntOp.minsi x v reducesTo_S1000000_S_d0 h_S_) : (⟨S1000000, .i32⟩ : BufTy).Contents (Elt F) → (⟨S_, .i32⟩ : BufTy).Contents (Elt F) → (⟨S_, .i32⟩ : BufTy).Contents (Elt F)),
    unary main_arg1 main_v3 ((extractStridedSlice S1x1000000 ![0, 0] · slices_S2x1000000_S1x1000000_0_0) : (⟨S2x1000000, .i32⟩ : BufTy).Contents (Elt F) → (⟨S1x1000000, .i32⟩ : BufTy).Contents (Elt F)),
    reshape main_v3 main_v4 rfl shapeCasts_S1x1000000_S1000000,
    unary main_v2 main_v5 (broadcastInDim S1000000 ![] bcast_S_S1000000 : (⟨S_, .i32⟩ : BufTy).Contents (Elt F) → (⟨S1000000, .i32⟩ : BufTy).Contents (Elt F)),
    binary main_v4 main_v5 main_v6 (subi : (⟨S1000000, .i32⟩ : BufTy).Contents (Elt F) → (⟨S1000000, .i32⟩ : BufTy).Contents (Elt F) → (⟨S1000000, .i32⟩ : BufTy).Contents (Elt F)),
    unary main_arg1 main_v7 ((extractStridedSlice S1x1000000 ![1, 0] · slices_S2x1000000_S1x1000000_1_0) : (⟨S2x1000000, .i32⟩ : BufTy).Contents (Elt F) → (⟨S1x1000000, .i32⟩ : BufTy).Contents (Elt F)),
    reshape main_v7 main_v8 rfl shapeCasts_S1x1000000_S1000000,
    unary main_v2 main_v9 (broadcastInDim S1000000 ![] bcast_S_S1000000 : (⟨S_, .i32⟩ : BufTy).Contents (Elt F) → (⟨S1000000, .i32⟩ : BufTy).Contents (Elt F)),
    binary main_v8 main_v9 main_v10 (subi : (⟨S1000000, .i32⟩ : BufTy).Contents (Elt F) → (⟨S1000000, .i32⟩ : BufTy).Contents (Elt F) → (⟨S1000000, .i32⟩ : BufTy).Contents (Elt F)),
    unary main_arg4 main_v11 ((transpose S128x64 [1, 0] · transposes_S64x128_S128x64_1_0) : (⟨S64x128, .f32⟩ : BufTy).Contents (Elt F) → (⟨S128x64, .f32⟩ : BufTy).Contents (Elt F)),
    binary main_arg0 main_v11 main_v12 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg5 main_v13 (broadcastInDim S1x64 ![1] bcast_S64_S1x64_1 : (⟨S64, .f32⟩ : BufTy).Contents (Elt F) → (⟨S1x64, .f32⟩ : BufTy).Contents (Elt F)),
    unary main_v13 main_v14 (broadcastInDim S100000x64 ![0, 1] bcast_S1x64_S100000x64_0_1 : (⟨S1x64, .f32⟩ : BufTy).Contents (Elt F) → (⟨S100000x64, .f32⟩ : BufTy).Contents (Elt F)),
    binary main_v12 main_v14 main_v15 (addf : (⟨S100000x64, .f32⟩ : BufTy).Contents (Elt F) → (⟨S100000x64, .f32⟩ : BufTy).Contents (Elt F) → (⟨S100000x64, .f32⟩ : BufTy).Contents (Elt F)),
    nullary main_c_0 (constantI S_ 32 0#32),
    unary main_c_0 main_v16 (broadcastInDim S1000000 ![] bcast_S_S1000000 : (⟨S_, .i32⟩ : BufTy).Contents (Elt F) → (⟨S1000000, .i32⟩ : BufTy).Contents (Elt F)),
    binary main_v6 main_v16 main_v17 (cmpi .slt : (⟨S1000000, .i32⟩ : BufTy).Contents (Elt F) → (⟨S1000000, .i32⟩ : BufTy).Contents (Elt F) → (⟨S1000000, .i1⟩ : BufTy).Contents (Elt F)),
    nullary main_c_1 (constantI S_ 32 100000#32),
    unary main_c_1 main_v18 (broadcastInDim S1000000 ![] bcast_S_S1000000 : (⟨S_, .i32⟩ : BufTy).Contents (Elt F) → (⟨S1000000, .i32⟩ : BufTy).Contents (Elt F)),
    binary main_v6 main_v18 main_v19 (addi : (⟨S1000000, .i32⟩ : BufTy).Contents (Elt F) → (⟨S1000000, .i32⟩ : BufTy).Contents (Elt F) → (⟨S1000000, .i32⟩ : BufTy).Contents (Elt F)),
    ternary main_v17 main_v19 main_v6 main_v20 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v20 main_v21 (broadcastInDim S1000000x1 ![0] bcast_S1000000_S1000000x1_0 : (⟨S1000000, .i32⟩ : BufTy).Contents (Elt F) → (⟨S1000000x1, .i32⟩ : BufTy).Contents (Elt F)),
    binary main_v15 main_v21 main_v22 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_c_2 (constantI S_ 32 0#32),
    unary main_c_2 main_v23 (broadcastInDim S1000000 ![] bcast_S_S1000000 : (⟨S_, .i32⟩ : BufTy).Contents (Elt F) → (⟨S1000000, .i32⟩ : BufTy).Contents (Elt F)),
    binary main_v10 main_v23 main_v24 (cmpi .slt : (⟨S1000000, .i32⟩ : BufTy).Contents (Elt F) → (⟨S1000000, .i32⟩ : BufTy).Contents (Elt F) → (⟨S1000000, .i1⟩ : BufTy).Contents (Elt F)),
    nullary main_c_3 (constantI S_ 32 100000#32),
    unary main_c_3 main_v25 (broadcastInDim S1000000 ![] bcast_S_S1000000 : (⟨S_, .i32⟩ : BufTy).Contents (Elt F) → (⟨S1000000, .i32⟩ : BufTy).Contents (Elt F)),
    binary main_v10 main_v25 main_v26 (addi : (⟨S1000000, .i32⟩ : BufTy).Contents (Elt F) → (⟨S1000000, .i32⟩ : BufTy).Contents (Elt F) → (⟨S1000000, .i32⟩ : BufTy).Contents (Elt F)),
    ternary main_v24 main_v26 main_v10 main_v27 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v27 main_v28 (broadcastInDim S1000000x1 ![0] bcast_S1000000_S1000000x1_0 : (⟨S1000000, .i32⟩ : BufTy).Contents (Elt F) → (⟨S1000000x1, .i32⟩ : BufTy).Contents (Elt F)),
    binary main_v15 main_v28 main_v29 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v22 main_v29 main_v30 (subf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1000000x64, .f32⟩) main_call0_v0) (broadcastInDim S1000000x64 ![] bcast_S_S1000000x64),
    TRef.binary (TRef.of (T := ⟨S1000000x64, .f32⟩) main_v30) (TRef.of (T := ⟨S1000000x64, .f32⟩) main_call0_v0) (TRef.of (T := ⟨S1000000x64, .f32⟩) main_v31) maximumf ]

/-- The last six: the concatenation, the transposed weights, the product, the bias. -/
abbrev opsPost : List (HloOp τ sig (Elt F)) :=
  [ nary ![main_v31, main_arg3, main_arg2] main_v32 (fun u => concatenate S1000000x96 1 [⟨S1000000x64, u 0⟩, ⟨S1000000x16, u 1⟩, ⟨S1000000x16, u 2⟩] concatenates_S1000000x64_S1000000x16_S1000000x16_S1000000x96_d1),
    unary main_arg6 main_v33 ((transpose S96x64 [1, 0] · transposes_S64x96_S96x64_1_0) : (⟨S64x96, .f32⟩ : BufTy).Contents (Elt F) → (⟨S96x64, .f32⟩ : BufTy).Contents (Elt F)),
    binary main_v32 main_v33 main_v34 ((fun l r => Host.dotGeneral dot_S1000000x96_S96x64_S1000000x64_1_0_0_1_n_n none l r) : (⟨S1000000x96, .f32⟩ : BufTy).Contents (Elt F) → (⟨S96x64, .f32⟩ : BufTy).Contents (Elt F) → (⟨S1000000x64, .f32⟩ : BufTy).Contents (Elt F)),
    unary main_arg7 main_v35 (broadcastInDim S1x64 ![1] bcast_S64_S1x64_1 : (⟨S64, .f32⟩ : BufTy).Contents (Elt F) → (⟨S1x64, .f32⟩ : BufTy).Contents (Elt F)),
    unary main_v35 main_v36 (broadcastInDim S1000000x64 ![0, 1] bcast_S1x64_S1000000x64_0_1 : (⟨S1x64, .f32⟩ : BufTy).Contents (Elt F) → (⟨S1000000x64, .f32⟩ : BufTy).Contents (Elt F)),
    binary main_v34 main_v36 main_v37 (addf : (⟨S1000000x64, .f32⟩ : BufTy).Contents (Elt F) → (⟨S1000000x64, .f32⟩ : BufTy).Contents (Elt F) → (⟨S1000000x64, .f32⟩ : BufTy).Contents (Elt F)) ]

/-- The whole line. -/
abbrev ops : List (HloOp τ sig (Elt F)) := opsPre ++ opsPost

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem pre_sub : (opsPre : List (HloOp τ sig (Elt F))).Forall fun op => op.bufs ⊆ tcRefs τ sig :=
  ⟨unary_bufs_sub .., reshape_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
theorem post_sub : (opsPost : List (HloOp τ sig (Elt F))).Forall fun op => op.bufs ⊆ tcRefs τ sig :=
  ⟨nary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => (List.mem_append.mp h).elim
    (List.forall_iff_forall_mem.mp pre_sub op) (List.forall_iff_forall_mem.mp post_sub op)

theorem pre_fresh : ∀ op ∈ (opsPre : List (HloOp τ sig (Elt F))), op.fresh = ∅ := by
  intro _ h; (repeat (cases h with | head => rfl | tail _ h => ?_)); exact nomatch h
theorem post_fresh : ∀ op ∈ (opsPost : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op h => (List.mem_append.mp h).elim (pre_fresh op) (post_fresh op)

/-- Running one stretch after another: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What the two stretches leave -/

/-- The last six operations, from any contents `W`: the result is `edgeOut` of what `W` holds at the rectified
    difference and at the four arguments they read. -/
theorem post_result (W : Valuation τ sig (Elt F)) :
    after opsPost W (Proc.devRef .tc main_v37)
      = edgeOut (F := F) (W (Proc.devRef .tc main_v31)) (W (Proc.devRef .tc main_arg3)) (W (Proc.devRef .tc main_arg2))
          (W (Proc.devRef .tc main_arg6)) (W (Proc.devRef .tc main_arg7)) := by
  after_results
  rfl

/-- The first 39 operations leave the rectified difference of the gathered embedding rows. -/
theorem pre_rectified (m : (ℓ : Loc nD τ sig) → Buf (Elt F) ℓ) (c : Dev nD) :
    after opsPre (launchContents m c) (Proc.devRef .tc main_v31)
      = rectified (F := F)
          (nodeEmbed (m ((c.tc : Thread nD τ).loc main_arg0)) (m ((c.tc : Thread nD τ).loc main_arg4)) (m ((c.tc : Thread nD τ).loc main_arg5)))
          (nodeColumn (sourceIds (m ((c.tc : Thread nD τ).loc main_arg1))) (startId (m ((c.tc : Thread nD τ).loc main_arg1))))
          (nodeColumn (destIds (m ((c.tc : Thread nD τ).loc main_arg1))) (startId (m ((c.tc : Thread nD τ).loc main_arg1)))) := by
  simp only [after_cons, after_nil]
  dsimp only [TRef.binary, TRef.unary, TRef.nullary, TRef.toBuf, TRef.ofBuf, cast_eq]
  after_results_simp
  rfl

/-- They write none of the arguments. -/
theorem pre_arg (m : (ℓ : Loc nD τ sig) → Buf (Elt F) ℓ) (c : Dev nD) :
    after opsPre (launchContents m c) (Proc.devRef .tc main_arg0) = m ((c.tc : Thread nD τ).loc main_arg0)
    ∧ after opsPre (launchContents m c) (Proc.devRef .tc main_arg1) = m ((c.tc : Thread nD τ).loc main_arg1)
    ∧ after opsPre (launchContents m c) (Proc.devRef .tc main_arg2) = m ((c.tc : Thread nD τ).loc main_arg2)
    ∧ after opsPre (launchContents m c) (Proc.devRef .tc main_arg3) = m ((c.tc : Thread nD τ).loc main_arg3)
    ∧ after opsPre (launchContents m c) (Proc.devRef .tc main_arg4) = m ((c.tc : Thread nD τ).loc main_arg4)
    ∧ after opsPre (launchContents m c) (Proc.devRef .tc main_arg5) = m ((c.tc : Thread nD τ).loc main_arg5)
    ∧ after opsPre (launchContents m c) (Proc.devRef .tc main_arg6) = m ((c.tc : Thread nD τ).loc main_arg6)
    ∧ after opsPre (launchContents m c) (Proc.devRef .tc main_arg7) = m ((c.tc : Thread nD τ).loc main_arg7) := by
  refine ⟨?_, ?_, ?_, ?_, ?_, ?_, ?_, ?_⟩ <;>
  · simp only [after_cons, after_nil]
    dsimp only [TRef.binary, TRef.unary, TRef.nullary, TRef.toBuf, TRef.ofBuf, cast_eq]
    after_results_simp

/-- Nor do the last six, from any contents. -/
theorem post_arg (W : Valuation τ sig (Elt F)) :
    after opsPost W (Proc.devRef .tc main_arg0) = W (Proc.devRef .tc main_arg0)
    ∧ after opsPost W (Proc.devRef .tc main_arg1) = W (Proc.devRef .tc main_arg1)
    ∧ after opsPost W (Proc.devRef .tc main_arg2) = W (Proc.devRef .tc main_arg2)
    ∧ after opsPost W (Proc.devRef .tc main_arg3) = W (Proc.devRef .tc main_arg3)
    ∧ after opsPost W (Proc.devRef .tc main_arg4) = W (Proc.devRef .tc main_arg4)
    ∧ after opsPost W (Proc.devRef .tc main_arg5) = W (Proc.devRef .tc main_arg5)
    ∧ after opsPost W (Proc.devRef .tc main_arg6) = W (Proc.devRef .tc main_arg6)
    ∧ after opsPost W (Proc.devRef .tc main_arg7) = W (Proc.devRef .tc main_arg7) := by
  refine ⟨?_, ?_, ?_, ?_, ?_, ?_, ?_, ?_⟩ <;> after_results

/-! ## The run -/

/-- On every device, from any memory with zero counters: every weakly fair execution of the reference terminates with
    the result array at `result` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = result (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_)
    (run_seq scopedRefs_eq scopedSems_eq defs main (fun _ => ops) main_eq (fun _ => ops_sub) m ρ (fun _ => ops_fresh))
  obtain ⟨a0, a1, a2, a3, a4, a5, a6, a7⟩ := pre_arg (F := F) m c
  obtain ⟨p0, p1, p2, p3, p4, p5, p6, p7⟩ := post_arg (F := F) (after opsPre (launchContents m c))
  refine ⟨?_, ?_, ?_, ?_, ?_, ?_, ?_, ?_, ?_⟩
  · rw [h c main_v37, after_append, post_result, pre_rectified, a2, a3, a6, a7]
    rfl
  · rw [h c main_arg0, after_append, p0, a0]
  · rw [h c main_arg1, after_append, p1, a1]
  · rw [h c main_arg2, after_append, p2, a2]
  · rw [h c main_arg3, after_append, p3, a3]
  · rw [h c main_arg4, after_append, p4, a4]
  · rw [h c main_arg5, after_append, p5, a5]
  · rw [h c main_arg6, after_append, p6, a6]
  · rw [h c main_arg7, after_append, p7, a7]

end Cert.ReferenceIdeal.HostRun

end
-- ==== Proof.SplitSum.lean ====
/-
  A sum over ninety-six terms as the sum of its first sixty-four, its next sixteen and its last sixteen.

  Addition in a commutative monoid is associative, so a finite sum may be cut into consecutive stretches and the
  stretches added in order; nothing is asked of the summands (on the extended reals this needs no finiteness).
-/
import Mathlib.Algebra.BigOperators.Fin

open scoped BigOperators

namespace Cert.EdgeConv

/-- `∑ k < 96, f k = (∑ k < 64, f k + ∑ k < 16, f (64 + k)) + ∑ k < 16, f (80 + k)`. -/
theorem sum_96_eq_64_16_16 {M : Type} [AddCommMonoid M] (f : Fin 96 → M) :
    ∑ k : Fin 96, f k
      = (∑ k : Fin 64, f ⟨k.val, by omega⟩ + ∑ k : Fin 16, f ⟨64 + k.val, by omega⟩) + ∑ k : Fin 16, f ⟨80 + k.val, by omega⟩ := by
  have h1 : ∑ k : Fin 96, f k = ∑ k : Fin 64, f (Fin.castAdd 32 k) + ∑ k : Fin 32, f (Fin.natAdd 64 k) :=
    Fin.sum_univ_add (a := 64) (b := 32) f
  have h2 : ∑ k : Fin 32, f (Fin.natAdd 64 k)
      = ∑ k : Fin 16, f (Fin.natAdd 64 (Fin.castAdd 16 k)) + ∑ k : Fin 16, f (Fin.natAdd 64 (Fin.natAdd 16 k)) :=
    Fin.sum_univ_add (a := 16) (b := 16) fun k => f (Fin.natAdd 64 k)
  rw [h1, h2, ← add_assoc]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext (by show 64 + (16 + k.val) = 80 + k.val; omega))

end Cert.EdgeConv
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.Bridge.lean ====
/-
  The kernel's function and the reference's are one function.

  Both programs build the same two columns of node indices from the edge list (the same operations on the same
  integers), so only two things differ.

  The node embedding: the kernel's entry (n, q) is `∑ c < 128, x (n,c) · W1 (q,c) + b1 (q)` with the bias read from a
  1 × 64 row; the reference's is the (n, q) entry of `x · W1ᵀ` plus `b1` broadcast twice — the same sum and the same bias
  entry.

  The edge output: the reference multiplies the 96-wide rows `[r | ea | ef]` by `W2ᵀ`, a sum of 96 products; the kernel
  adds three sums, over the first 64, the next 16 and the last 16 columns of `W2`. A sum of 96 terms is the sum of its
  three stretches (addition of extended reals is associative; nothing need be finite), a column of the concatenation in
  a stretch is the column of that piece, and a column of a slice of `W2` is that column of `W2`.
-/
import proofs.«175632_j687194767627_2_alg».proof.Proof.KernelGlue
import proofs.«175632_j687194767627_2_alg».proof.Proof.RefRun
import proofs.«175632_j687194767627_2_alg».proof.Proof.SplitSum
import proofs.«175632_j687194767627_2_alg».proof.Proof.LibConcatRead
import proofs.«175632_j687194767627_2_alg».proof.Proof.LibPlainDotGeneral
import Idealize.ShloMosaic.Lib.Pipeline.Value
import Idealize.ShloMosaic.Lib.ValueIdx
import Idealize.ShloMosaic.Lib.ValueLayout

noncomputable section

open scoped BigOperators

namespace Cert.EdgeConv

open Cert.KernelIdeal Idealize.ShloMosaic Idealize.ShloMosaic.ValueIdx
open Cert.KernelIdeal.Glue (sourceIds destIds startId nodeColumn rowsAt asRow)

/-! ## The index columns and the gather are the same operations -/

theorem sourceIds_eq (ei : (⟨S2x1000000, .i32⟩ : BufTy).Contents (Elt Ideal)) :
    sourceIds (F := Ideal) ei = Cert.ReferenceIdeal.HostRun.sourceIds (F := Ideal) ei := rfl
theorem destIds_eq (ei : (⟨S2x1000000, .i32⟩ : BufTy).Contents (Elt Ideal)) :
    destIds (F := Ideal) ei = Cert.ReferenceIdeal.HostRun.destIds (F := Ideal) ei := rfl
theorem startId_eq (ei : (⟨S2x1000000, .i32⟩ : BufTy).Contents (Elt Ideal)) :
    startId (F := Ideal) ei = Cert.ReferenceIdeal.HostRun.startId (F := Ideal) ei := rfl
theorem nodeColumn_eq (ids : (⟨S1000000, .i32⟩ : BufTy).Contents (Elt Ideal)) (s : (⟨S_, .i32⟩ : BufTy).Contents (Elt Ideal)) :
    nodeColumn (F := Ideal) ids s = Cert.ReferenceIdeal.HostRun.nodeColumn (F := Ideal) ids s := rfl
theorem rowsAt_eq (h : Vec Ideal S100000x64 .f32) (col : (⟨S1000000x1, .i32⟩ : BufTy).Contents (Elt Ideal)) :
    rowsAt (F := Ideal) h col
      = Host.gather Cert.ReferenceIdeal.gather_S100000x64_S1000000x1_S1000000x64_1_0_n_n_0_1_164 h col := rfl

/-! ## A bias vector as a row, and broadcast twice -/

/-- The bias row's entry (0, q) is the vector's entry q. -/
theorem asRow_apply (b : Vec Ideal S64 .f32) (q : Fin 64) : asRow (F := Ideal) b (ix2 (0 : Fin 1) q) = b (ix1 q) :=
  shapeCast_a_1a_apply b Facts₀.shapeCasts_S64_S1x64 (0 : Fin 1) q

/-- The bias broadcast to a row and then down `a` rows reads, at (p, q), the vector's entry q. -/
theorem biasTwice_apply {a : ℕ} (b : Vec Ideal S64 .f32)
    (h1 : S64.BroadcastsInDim S1x64 ![1]) (h2 : S1x64.BroadcastsInDim ⟨2, ![a, 64]⟩ ![0, 1]) (p : Fin a) (q : Fin 64) :
    broadcastInDim ⟨2, ![a, 64]⟩ ![0, 1] h2 (broadcastInDim S1x64 ![1] h1 b) (ix2 p q) = b (ix1 q) := by
  refine (broadcastInDim_apply _ h2 (broadcastInDim S1x64 ![1] h1 b) (ix2 p q) (ix2 (0 : Fin 1) q) (fun ax => match ax with
    | ⟨0, _⟩ => by show 0 = if (1 : Nat) = 1 then 0 else _; rw [if_pos rfl]
    | ⟨1, _⟩ => by show q.val = if (64 : Nat) = 1 then 0 else q.val; rw [if_neg (by decide)])).trans ?_
  exact broadcastInDim_apply _ h1 b (ix2 (0 : Fin 1) q) (ix1 q) (fun ax => match ax with
    | ⟨0, _⟩ => by show q.val = if (64 : Nat) = 1 then 0 else q.val; rw [if_neg (by decide)])

/-! ## The node embedding -/

theorem embed_eq (x : Vec Ideal S100000x128 .f32) (w1 : Vec Ideal S64x128 .f32) (b1 : Vec Ideal S64 .f32) :
    NodeEmbed.embed x w1 (asRow (F := Ideal) b1) = Cert.ReferenceIdeal.HostRun.nodeEmbed (F := Ideal) x w1 b1 := by
  funext i
  obtain ⟨n, q, rfl⟩ : ∃ (n : Fin 100000) (q : Fin 64), i = ix2 n q := ⟨i 0, i 1, eq_ix2 i⟩
  unfold NodeEmbed.embed Cert.ReferenceIdeal.HostRun.nodeEmbed
  refine congrArg₂ (· + ·) ?_ ((asRow_apply b1 q).trans (biasTwice_apply b1 _ _ n q).symm)
  refine Eq.trans ?_ (dotGeneral_plain_apply Cert.ReferenceIdeal.Facts₀.dot_S100000x128_S128x64_S100000x64_1_0_0_1_n_n_wf none x
    (transpose Cert.ReferenceIdeal.S128x64 [1, 0] w1 Cert.ReferenceIdeal.Facts₀.transposes_S64x128_S128x64_1_0) n q).symm
  refine Finset.sum_congr rfl fun k _ => congrArg (x (ix2 n k) * ·) ?_
  exact (transpose_apply [1, 0] w1 Cert.ReferenceIdeal.Facts₀.transposes_S64x128_S128x64_1_0 (ix2 k q) (ix2 q k) (fun b => match b with
    | ⟨0, _⟩ => rfl
    | ⟨1, _⟩ => rfl)).symm

/-! ## The edge output -/

/-- A column of the transposed second weight matrix is a row of it. -/
theorem w2T_apply (w2 : Vec Ideal S64x96 .f32) (k : Fin 96) (q : Fin 64) :
    transpose Cert.ReferenceIdeal.S96x64 [1, 0] w2 Cert.ReferenceIdeal.Facts₀.transposes_S64x96_S96x64_1_0 (ix2 k q) = w2 (ix2 q k) :=
  transpose_apply [1, 0] w2 Cert.ReferenceIdeal.Facts₀.transposes_S64x96_S96x64_1_0 (ix2 k q) (ix2 q k) (fun b => match b with
    | ⟨0, _⟩ => rfl
    | ⟨1, _⟩ => rfl)

/-- The kernel's sum of three products with the three column stretches of `W2`, plus the bias row, is the reference's
    product of the joined rows `[r | ea | ef]` with `W2ᵀ`, plus the bias broadcast — for `r` the rectified difference of
    `hs` and `hd`, entry by entry. -/
theorem edges_eq_edgeOut (hs hd r : FVec Ideal S1000000x64 .f32)
    (hr : ∀ (e : Fin 1000000) (k : Fin 64), max (hs (ix2 e k) - hd (ix2 e k)) EdgeOut.zero32 = r (ix2 e k))
    (ea ef : Vec Ideal S1000000x16 .f32) (w2 : Vec Ideal S64x96 .f32) (b2 : Vec Ideal S64 .f32) :
    EdgeOut.edges hs hd ea ef
        (extractStridedSlice S64x64 ![0, 0] w2 Facts₀.slices_S64x96_S64x64_0_0)
        (extractStridedSlice S64x16 ![0, 64] w2 Facts₀.slices_S64x96_S64x16_0_64)
        (extractStridedSlice S64x16 ![0, 80] w2 Facts₀.slices_S64x96_S64x16_0_80)
        (asRow (F := Ideal) b2)
      = Cert.ReferenceIdeal.HostRun.edgeOut (F := Ideal) r ea ef w2 b2 := by
  funext i
  obtain ⟨e, q, rfl⟩ : ∃ (e : Fin 1000000) (q : Fin 64), i = ix2 e q := ⟨i 0, i 1, eq_ix2 i⟩
  unfold EdgeOut.edges Cert.ReferenceIdeal.HostRun.edgeOut
  refine congrArg₂ (· + ·) ?_ ((asRow_apply b2 q).trans (biasTwice_apply b2 _ _ e q).symm)
  refine Eq.trans ?_ (dotGeneral_plain_apply Cert.ReferenceIdeal.Facts₀.dot_S1000000x96_S96x64_S1000000x64_1_0_0_1_n_n_wf none _
    (transpose Cert.ReferenceIdeal.S96x64 [1, 0] w2 Cert.ReferenceIdeal.Facts₀.transposes_S64x96_S96x64_1_0) e q).symm
  rw [sum_96_eq_64_16_16]
  refine congrArg₂ (· + ·) (congrArg₂ (· + ·) ?_ ?_) ?_
  · refine Finset.sum_congr rfl fun k _ => congrArg₂ (· * ·) ?_ ?_
    · exact (hr e k).trans (concat3_cols_first r ea ef Cert.ReferenceIdeal.Facts₀.concatenates_S1000000x64_S1000000x16_S1000000x16_S1000000x96_d1 e k ⟨k.val, by omega⟩ rfl).symm
    · exact (slice2_axis1_apply 0 w2 Facts₀.slices_S64x96_S64x64_0_0 q k ⟨k.val, by omega⟩ (Nat.zero_add _).symm).trans
        (w2T_apply w2 ⟨k.val, by omega⟩ q).symm
  · refine Finset.sum_congr rfl fun k _ => congrArg₂ (· * ·) ?_ ?_
    · exact (concat3_cols_second r ea ef Cert.ReferenceIdeal.Facts₀.concatenates_S1000000x64_S1000000x16_S1000000x16_S1000000x96_d1 e k ⟨64 + k.val, by omega⟩ rfl).symm
    · exact (slice2_axis1_apply 64 w2 Facts₀.slices_S64x96_S64x16_0_64 q k ⟨64 + k.val, by omega⟩ rfl).trans
        (w2T_apply w2 ⟨64 + k.val, by omega⟩ q).symm
  · refine Finset.sum_congr rfl fun k _ => congrArg₂ (· * ·) ?_ ?_
    · exact (concat3_cols_third r ea ef Cert.ReferenceIdeal.Facts₀.concatenates_S1000000x64_S1000000x16_S1000000x16_S1000000x96_d1 e k ⟨80 + k.val, by omega⟩
        (by show 80 + k.val = 64 + 16 + k.val; omega)).symm
    · exact (slice2_axis1_apply 80 w2 Facts₀.slices_S64x96_S64x16_0_80 q k ⟨80 + k.val, by omega⟩ rfl).trans
        (w2T_apply w2 ⟨80 + k.val, by omega⟩ q).symm

/-! ## The two results -/

/-- The kernel's result array and the reference's are the same function of the eight arguments. -/
theorem result_eq (x : Vec Ideal S100000x128 .f32) (ei : (⟨S2x1000000, .i32⟩ : BufTy).Contents (Elt Ideal)) (ef ea : Vec Ideal S1000000x16 .f32)
    (w1 : Vec Ideal S64x128 .f32) (b1 : Vec Ideal S64 .f32) (w2 : Vec Ideal S64x96 .f32) (b2 : Vec Ideal S64 .f32) :
    Glue.result x ei ef ea w1 b1 w2 b2 = Cert.ReferenceIdeal.HostRun.result (F := Ideal) x ei ef ea w1 b1 w2 b2 := by
  unfold Glue.result Cert.ReferenceIdeal.HostRun.result Cert.ReferenceIdeal.HostRun.rectified
  rw [embed_eq, rowsAt_eq, rowsAt_eq, sourceIds_eq, destIds_eq, startId_eq, nodeColumn_eq, nodeColumn_eq]
  exact edges_eq_edgeOut _ _ _ (fun e k => rfl) ea ef w2 b2

end Cert.EdgeConv

end
-- ==== Proof.lean ====
/- The proof of `Cert.Claim` (proofs.«175632_j687194767627_2_alg».proof.Defs): an edge convolution — a node embedding `h = x · W1ᵀ + b1`, its
   rows gathered at each edge's source and destination node, and `max (h[src] − h[dst]) 0` joined with the edge attributes
   and edge features and sent through `· W2ᵀ + b2` — as two pallas_calls with host operations between, against the plain
   array program.

   The three frames: the two kernels' are the generated ones; the reference has no kernel, and its frame is its run
   with the result dropped. `preserves` is trivial: the idealization rewrote no operation. `algebraic`: at the exact
   extended reals the kernel's result array ends at `Glue.result` of the arguments (Proof/KernelGlue.lean, over the two
   calls' arrays: Proof/NodeArray.lean, Proof/EdgeArray.lean) and the reference's at `HostRun.result` of them
   (Proof/RefRun.lean); the two are one function (Proof/Bridge.lean): the same index columns, the same embedding, and a sum
   of 96 products cut into its stretches of 64, 16 and 16. No step needs a finite input. -/
import proofs.«175632_j687194767627_2_alg».proof.Defs
import proofs.«175632_j687194767627_2_alg».proof.Proof.Gen.Kernel
import proofs.«175632_j687194767627_2_alg».proof.Proof.Gen.Kernel.Skeleton
import proofs.«175632_j687194767627_2_alg».proof.Proof.Gen.Kernel.Launch
import proofs.«175632_j687194767627_2_alg».proof.Proof.Gen.Kernel.Points
import proofs.«175632_j687194767627_2_alg».proof.Proof.Gen.Kernel.Frame
import proofs.«175632_j687194767627_2_alg».proof.Proof.Gen.KernelIdeal
import proofs.«175632_j687194767627_2_alg».proof.Proof.Gen.KernelIdeal.Skeleton
import proofs.«175632_j687194767627_2_alg».proof.Proof.Gen.KernelIdeal.Launch
import proofs.«175632_j687194767627_2_alg».proof.Proof.Gen.KernelIdeal.Points
import proofs.«175632_j687194767627_2_alg».proof.Proof.Gen.KernelIdeal.Frame
import proofs.«175632_j687194767627_2_alg».proof.Proof.Gen.ReferenceIdeal
import proofs.«175632_j687194767627_2_alg».proof.Proof.Gen.Pre_finite_inputs
import proofs.«175632_j687194767627_2_alg».proof.Proof.KernelGlue
import proofs.«175632_j687194767627_2_alg».proof.Proof.RefRun
import proofs.«175632_j687194767627_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.HostRun.run (F := Ideal) m ρ)

/-- The ideal pass rewrote nothing. -/
theorem preserves : Cert.preserves_Kernel_KernelIdeal := trivial

/-- Both programs end with the same function of arguments that agree. -/
theorem algebraic : Cert.algebraic_KernelIdeal_ReferenceIdeal := by
  intro m ρ m' ρ' _ hagree
  refine ⟨_, Cert.KernelIdeal.Glue.run m ρ, ?_⟩
  refine (θ_run Cert.ReferenceIdeal.defs _ _).mono (fun _ h c => ⟨(h c).1.trans ?_, (h c).2⟩)
    (Cert.ReferenceIdeal.HostRun.run (F := Ideal) m' ρ')
  obtain ⟨e0, e1, e2, e3, e4, e5, e6, e7⟩ := hagree c
  rw [e0, e1, e2, e3, e4, e5, e6, e7]
  exact (Cert.EdgeConv.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
